-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S262144x128 .f32) (main_arg1 : FVec F S128x128 .f32) (main_arg2 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S262144x128 : Shape := ⟨2, ![262144, 128]⟩
abbrev S128x128 : Shape := ⟨2, ![128, 128]⟩
abbrev S128 : Shape := ⟨1, ![128]⟩
abbrev S1x128 : Shape := ⟨2, ![1, 128]⟩
abbrev S8192x128 : Shape := ⟨2, ![8192, 128]⟩
abbrev S8192 : Shape := ⟨1, ![8192]⟩
abbrev S8192x1 : Shape := ⟨2, ![8192, 1]⟩

abbrev nBuf : Space → Nat
  | .hbm => 6
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128, .f32⟩
  | .hbm, ⟨3, _⟩ => ⟨S128x128, .bf16⟩
  | .hbm, ⟨4, _⟩ => ⟨S1x128, .f32⟩
  | .hbm, ⟨5, _⟩ => ⟨S262144x128, .f32⟩
  | .local _ .vmem, ⟨0, _⟩ => ⟨S8192x128, .f32⟩
  | .local _ .vmem, ⟨1, _⟩ => ⟨S8192x128, .f32⟩
  | .local _ .vmem, ⟨2, _⟩ => ⟨S128x128, .bf16⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  reduces_S8192x128_S8192 : S8192x128.Reduces [1] S8192
  shapeCasts_S8192_S8192x1 : S8192.ShapeCasts S8192x1
  broadcasts_S8192x1_S8192x128 : S8192x1.Broadcasts S8192x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S262144 : Shape := ⟨1, ![262144]⟩
abbrev S262144x1 : Shape := ⟨2, ![262144, 1]⟩

abbrev nBuf : Space → Nat
  | .hbm => 30
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128, .f32⟩
  | .hbm, ⟨3, _⟩ => ⟨S262144x128, .f32⟩
  | .hbm, ⟨4, _⟩ => ⟨S1x128, .f32⟩
  | .hbm, ⟨5, _⟩ => ⟨S262144x128, .f32⟩
  | .hbm, ⟨6, _⟩ => ⟨S262144x128, .f32⟩
  | .hbm, ⟨7, _⟩ => ⟨S_, .f32⟩
  | .hbm, ⟨8, _⟩ => ⟨S262144, .f32⟩
  | .hbm, ⟨9, _⟩ => ⟨S262144x1, .f32⟩
  | .hbm, ⟨10, _⟩ => ⟨S_, .f32⟩
  | .hbm, ⟨11, _⟩ => ⟨S262144x1, .f32⟩
  | .hbm, ⟨12, _⟩ => ⟨S262144x1, .f32⟩
  | .hbm, ⟨13, _⟩ => ⟨S262144x128, .f32⟩
  | .hbm, ⟨14, _⟩ => ⟨S262144x128, .f32⟩
  | .hbm, ⟨15, _⟩ => ⟨S262144x128, .f32⟩
  | .hbm, ⟨16, _⟩ => ⟨S_, .f32⟩
  | .hbm, ⟨17, _⟩ => ⟨S262144, .f32⟩
  | .hbm, ⟨18, _⟩ => ⟨S262144x1, .f32⟩
  | .hbm, ⟨19, _⟩ => ⟨S_, .f32⟩
  | .hbm, ⟨20, _⟩ => ⟨S262144x1, .f32⟩
  | .hbm, ⟨21, _⟩ => ⟨S262144x1, .f32⟩
  | .hbm, ⟨22, _⟩ => ⟨S262144x128, .f32⟩
  | .hbm, ⟨23, _⟩ => ⟨S262144x128, .f32⟩
  | .hbm, ⟨24, _⟩ => ⟨S_, .f32⟩
  | .hbm, ⟨25, _⟩ => ⟨S262144x1, .f32⟩
  | .hbm, ⟨26, _⟩ => ⟨S262144x1, .f32⟩
  | .hbm, ⟨27, _⟩ => ⟨S262144x1, .f32⟩
  | .hbm, ⟨28, _⟩ => ⟨S262144x128, .f32⟩
  | .hbm, ⟨29, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  reducesTo_S262144x128_S262144_d1 : S262144x128.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x128_0_1 : S262144x1.BroadcastsInDim S262144x128 (![0, 1] : Fin 2 → Fin S262144x128.rank)
  dot_S262144x128_S128x128_S262144x128_1_0_0_1_n_n_wf : DotDims.WF S262144x128 S128x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.LibRowMoments.lean ====
/-
  Two ways of writing a row's variance, on the extended reals.

  For a row z of n numbers and a count c, put μ = (Σ z) / c. The variance is written either from the first two
  moments, (Σ z²) / c − μ·μ, or as the mean square deviation from the mean, (Σ (z − μ)²) / c. When c is the real
  number n ≠ 0 and every entry of the row is a real number, the two are the same real:
      Σ (z − μ)² = Σ z² − 2 μ Σ z + n μ² = Σ z² − n μ²,   because Σ z = n μ.
  On the extended reals the entries have to be finite for this: a difference does not cancel at an infinity.
  A row normalized with either variance is then the same row.
-/
import Idealize.ShloMosaic.PureOps.Ideal.Laws

noncomputable section

open scoped BigOperators

namespace Cert.RowMoments

open Idealize.ShloMosaic

/-- A finite sum of real numbers, each read as an extended real, is the real sum read as an extended real. -/
theorem coe_sum {ι : Type} (s : Finset ι) (f : ι → ℝ) :
    (∑ i ∈ s, (f i : EReal)) = ((∑ i ∈ s, f i : ℝ) : EReal) := by
  classical
  refine Finset.induction_on s (by simp) fun a s ha ih => ?_
  rw [Finset.sum_insert ha, Finset.sum_insert ha, ih, EReal.coe_add]

variable {n : ℕ}

/-- The mean of a row: its sum divided by the count `c`. -/
def mean (c : EReal) (z : Fin n → EReal) : EReal := Ideal.div (∑ j, z j) c

/-- The variance from the first two moments: the mean of the squares minus the square of the mean. -/
def varMoments (c : EReal) (z : Fin n → EReal) : EReal :=
  Ideal.div (∑ j, z j * z j) c - mean c z * mean c z

/-- The variance as the mean square deviation from the mean. -/
def varCentered (c : EReal) (z : Fin n → EReal) : EReal :=
  Ideal.div (∑ j, (z j - mean c z) * (z j - mean c z)) c

/-- A row normalized: an entry's deviation from the mean times the reciprocal square root of `v + ε`. -/
def normalized (v ε c : EReal) (z : Fin n → EReal) (j : Fin n) : EReal :=
  (z j - mean c z) * Ideal.rsqrt (v + ε)

/-- The identity on the reals, with the division written as the product by `1 / c`. -/
theorem real_moments_eq_centered (c : ℝ) (hn : (n : ℝ) = c) (hc : c ≠ 0) (y : Fin n → ℝ) :
    (∑ j, y j * y j) * (1 / c) - (∑ j, y j) * (1 / c) * ((∑ j, y j) * (1 / c))
      = (∑ j, (y j - (∑ j, y j) * (1 / c)) * (y j - (∑ j, y j) * (1 / c))) * (1 / c) := by
  generalize hμ : (∑ j, y j) * (1 / c) = μ
  have hS : (∑ j, y j) = c * μ := by rw [← hμ]; field_simp
  have hsq : ∑ j, (y j - μ) * (y j - μ) = (∑ j, y j * y j) - 2 * μ * (∑ j, y j) + c * (μ * μ) := by
    have h1 : ∀ j, (y j - μ) * (y j - μ) = y j * y j - 2 * μ * y j + μ * μ := fun j => by ring
    simp only [h1, Finset.sum_add_distrib, Finset.sum_sub_distrib, ← Finset.mul_sum, Finset.sum_const,
      Finset.card_univ, Fintype.card_fin, nsmul_eq_mul, hn]
    ring
  rw [hsq, hS]
  field_simp
  ring

/-- On a row of real numbers, with the count the real number `n ≠ 0`, the two variances are one extended real. -/
theorem varMoments_eq_varCentered (c : ℝ) (hn : (n : ℝ) = c) (hc : c ≠ 0) (y : Fin n → ℝ) :
    varMoments (c : EReal) (fun j => (y j : EReal)) = varCentered (c : EReal) (fun j => (y j : EReal)) := by
  simp only [varMoments, varCentered, mean, Ideal.div_coe hc, ← EReal.coe_mul, coe_sum, ← EReal.coe_sub]
  exact congrArg _ (real_moments_eq_centered c hn hc y)

/-- So a row of real numbers normalized with either variance is the same row. -/
theorem normalized_moments_eq_centered (c : ℝ) (hn : (n : ℝ) = c) (hc : c ≠ 0) (ε : EReal) (z : Fin n → EReal)
    (hz : ∀ j, ∃ y : ℝ, z j = (y : EReal)) (j : Fin n) :
    normalized (varMoments (c : EReal) z) ε c z j = normalized (varCentered (c : EReal) z) ε c z j := by
  choose y hy using hz
  obtain rfl : z = fun j => (y j : EReal) := funext hy
  rw [varMoments_eq_varCentered c hn hc y]

/-- An affine combination of real numbers, read on the extended reals, is a real number. -/
theorem affine_real {K : ℕ} (x w : Fin K → EReal) (b : EReal) (hx : ∀ k, ∃ y : ℝ, x k = (y : EReal))
    (hw : ∀ k, ∃ y : ℝ, w k = (y : EReal)) (hb : ∃ y : ℝ, b = (y : EReal)) :
    ∃ y : ℝ, (∑ k, x k * w k) + b = (y : EReal) := by
  choose x' hx' using hx
  choose w' hw' using hw
  obtain ⟨b', rfl⟩ := hb
  refine ⟨(∑ k, x' k * w' k) + b', ?_⟩
  simp only [hx', hw', ← EReal.coe_mul, coe_sum, ← EReal.coe_add]

end Cert.RowMoments

end
-- ==== Proof.Target.lean ====
/-
  The function both programs compute, over the literal shapes.

  For x : [M, 128], W : [128, 128] and a bias b over the 128 columns, row r of the affine image is
      z_r(j) = (Σ_k x(r, k) · W(k, j)) + b(j).
  Each row is then normalized: (z_r(j) − mean z_r) · rsqrt (var z_r + ε), with the count 128.0 and the offset ε the two
  f32 words the programs spell. The variance is written in two ways — from the first two moments, or as the mean
  square deviation — and the two arrays are equal when every entry of x, W and b is a real number: then every z_r(j)
  is a real number and the two variances of a real row are one number.
-/
import proofs.«165937_j50388556316960_2_alg».proof.Proof.LibRowMoments
import Idealize.ShloMosaic.Lib.ValueIdx

noncomputable section

open scoped BigOperators

namespace Cert.Target

open Idealize.ShloMosaic Idealize.ShloMosaic.ValueIdx Cert.RowMoments

/-- The count of a row's entries, 128.0, as the programs spell it. -/
abbrev cnt : EReal := Ideal.ofBits .f32 0x43000000#32
/-- The offset under the reciprocal square root, the f32 nearest to 1e-5, as the programs spell it. -/
abbrev eps : EReal := Ideal.ofBits .f32 0x3727C5AC#32

/-- The word of 128.0 denotes the real number 128. -/
theorem cnt_eq : cnt = ((128 : ℝ) : EReal) := by
  simp [Ideal.ofBits, Ideal.ieee, -EReal.coe_mul]; norm_num

/-- Row `r` of the affine image of an M×128 array. -/
def affineRow {M : ℕ} (x : (⟨2, ![M, 128]⟩ : Shape).Idx → EReal) (w : (⟨2, ![128, 128]⟩ : Shape).Idx → EReal)
    (b : Fin 128 → EReal) (r : Fin M) : Fin 128 → EReal :=
  fun j => (∑ k : Fin 128, x (ix2 r k) * w (ix2 k j)) + b j

/-- The array of rows normalized with the variance from the moments. -/
def momentsForm {M : ℕ} (x : (⟨2, ![M, 128]⟩ : Shape).Idx → EReal) (w : (⟨2, ![128, 128]⟩ : Shape).Idx → EReal)
    (b : Fin 128 → EReal) : (⟨2, ![M, 128]⟩ : Shape).Idx → EReal :=
  fun i => normalized (varMoments cnt (affineRow x w b (i 0))) eps cnt (affineRow x w b (i 0)) (i 1)

/-- The array of rows normalized with the mean square deviation. -/
def centeredForm {M : ℕ} (x : (⟨2, ![M, 128]⟩ : Shape).Idx → EReal) (w : (⟨2, ![128, 128]⟩ : Shape).Idx → EReal)
    (b : Fin 128 → EReal) : (⟨2, ![M, 128]⟩ : Shape).Idx → EReal :=
  fun i => normalized (varCentered cnt (affineRow x w b (i 0))) eps cnt (affineRow x w b (i 0)) (i 1)

/-- On real arguments every entry of the affine image is a real number. -/
theorem affineRow_real {M : ℕ} (x : (⟨2, ![M, 128]⟩ : Shape).Idx → EReal) (w : (⟨2, ![128, 128]⟩ : Shape).Idx → EReal)
    (b : Fin 128 → EReal) (hx : ∀ i, ∃ y : ℝ, x i = (y : EReal)) (hw : ∀ i, ∃ y : ℝ, w i = (y : EReal))
    (hb : ∀ j, ∃ y : ℝ, b j = (y : EReal)) (r : Fin M) (j : Fin 128) : ∃ y : ℝ, affineRow x w b r j = (y : EReal) :=
  affine_real (fun k => x (ix2 r k)) (fun k => w (ix2 k j)) (b j) (fun k => hx _) (fun k => hw _) (hb j)

/-- On real arguments the two arrays are one. -/
theorem momentsForm_eq_centeredForm {M : ℕ} (x : (⟨2, ![M, 128]⟩ : Shape).Idx → EReal)
    (w : (⟨2, ![128, 128]⟩ : Shape).Idx → EReal) (b : Fin 128 → EReal)
    (hx : ∀ i, ∃ y : ℝ, x i = (y : EReal)) (hw : ∀ i, ∃ y : ℝ, w i = (y : EReal))
    (hb : ∀ j, ∃ y : ℝ, b j = (y : EReal)) : momentsForm x w b = centeredForm x w b := by
  funext i
  unfold momentsForm centeredForm
  rw [cnt_eq]
  exact normalized_moments_eq_centered (128 : ℝ) (by norm_num) (by norm_num) eps _
    (affineRow_real x w b hx hw hb (i 0)) (i 1)

end Cert.Target

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«165937_j50388556316960_2_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.LibMomentNorm.lean ====
/-
  A block normalized row by row from its first two moments, read at an entry, at the ideal instance.

  For an a×b block Z and two f32 words — the count c and the offset ε — the vector expression
      (Z − bcast μ) · bcast (rsqrt ((rowsum (Z·Z) / c − μ·μ) + ε)),     μ = rowsum Z / c  (a column [a, 1]),
  where rowsum is the lane sum started from zero and cast to a column, and bcast repeats a column along the rows,
  has at row p and column q the value
      (z q − mean z) · rsqrt ((Σ z² / c − mean z · mean z) + ε),          z = row p of Z,
  that is `RowMoments.normalized` with the variance from the moments. Stated for any extents and any two words.
-/
import proofs.«165937_j50388556316960_2_alg».proof.Proof.LibRowMoments
import proofs.«165937_j50388556316960_2_alg».proof.Proof.LibColumnForms

noncomputable section

open scoped BigOperators

namespace Cert.Lib.MomentNorm

open Idealize.ShloMosaic Idealize.ShloMosaic.ValueIdx Cert.RowMoments Cert.Lib.ColumnForms

variable {a b : Nat}

/-- The column of row means: the lane sum from zero, cast to a column, divided by the count word. -/
abbrev meanCol (cw : BitVec 32) (Z : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ)
    (hsc : (⟨1, ![a]⟩ : Shape).ShapeCasts ⟨2, ![a, 1]⟩) : FVec Ideal ⟨2, ![a, 1]⟩ .f32 :=
  divf (shapeCast ⟨2, ![a, 1]⟩ (multiReduction (F := Ideal) .add [1] ⟨1, ![a]⟩ Z 0x00000000#32 hred hφ hacc) hsc)
    (broadcast ⟨2, ![a, 1]⟩ (Scalar.ofBits (F := Ideal) .f32 cw))

/-- The column of row means at row p is the mean of row p. -/
theorem meanCol_apply (cw : BitVec 32) (Z : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ)
    (hsc : (⟨1, ![a]⟩ : Shape).ShapeCasts ⟨2, ![a, 1]⟩) (p : Fin a) (z : Fin 1) :
    meanCol cw Z hred hφ hacc hsc (ix2 p z) = mean (Ideal.ofBits .f32 cw) (fun j => Z (ix2 p j)) := by
  show Ideal.div (shapeCast ⟨2, ![a, 1]⟩ (multiReduction (F := Ideal) .add [1] ⟨1, ![a]⟩ Z 0x00000000#32 hred hφ hacc) hsc (ix2 p z))
    (Ideal.ofBits .f32 cw) = _
  rw [shapeCast_a_a1_apply, rowSum_apply]
  rfl

/-- The normalized block at the entry (p, q). -/
theorem momentNorm_apply (cw ew : BitVec 32) (Z : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ)
    (hsc : (⟨1, ![a]⟩ : Shape).ShapeCasts ⟨2, ![a, 1]⟩)
    (hbc : (⟨2, ![a, 1]⟩ : Shape).Broadcasts ⟨2, ![a, b]⟩) (p : Fin a) (q : Fin b) :
    mulf (subf Z (broadcastTo ⟨2, ![a, b]⟩ (meanCol cw Z hred hφ hacc hsc) hbc))
        (broadcastTo ⟨2, ![a, b]⟩
          (rsqrt (addf
            (subf (meanCol cw (mulf Z Z) hred hφ hacc hsc)
              (mulf (meanCol cw Z hred hφ hacc hsc) (meanCol cw Z hred hφ hacc hsc)))
            (broadcast ⟨2, ![a, 1]⟩ (Scalar.ofBits (F := Ideal) .f32 ew)))) hbc) (ix2 p q)
      = normalized (varMoments (Ideal.ofBits .f32 cw) (fun j => Z (ix2 p j))) (Ideal.ofBits .f32 ew)
          (Ideal.ofBits .f32 cw) (fun j => Z (ix2 p j)) q := by
  rw [mulf_apply, subf_apply, broadcastTo_a1_ab_apply, broadcastTo_a1_ab_apply, meanCol_apply]
  show (Z (ix2 p q) - _) * Ideal.rsqrt ((meanCol cw (mulf Z Z) hred hφ hacc hsc (ix2 p (0 : Fin 1))
      - meanCol cw Z hred hφ hacc hsc (ix2 p (0 : Fin 1)) * meanCol cw Z hred hφ hacc hsc (ix2 p (0 : Fin 1)))
      + Ideal.ofBits .f32 ew) = _
  rw [meanCol_apply, meanCol_apply]
  rfl

end Cert.Lib.MomentNorm

end
-- ==== Proof.KernelBlock.lean ====
/-
  What the kernel's body stores, read at an entry of the block.

  The body takes a block of 8192 rows of x, the whole 128×128 matrix and the one-row bias. It forms the affine image of
  the block (the matrix product into a zero accumulator plus the bias row repeated over the rows; the changes of float
  format are the identity on the extended reals) and normalizes each row with the variance from the first two moments.
  So the stored value at row p, column q of the block is the moments form of the block's affine image there.
-/
import proofs.«165937_j50388556316960_2_alg».proof.Proof.Gen.KernelIdeal.Skeleton
import proofs.«165937_j50388556316960_2_alg».proof.Proof.Target
import proofs.«165937_j50388556316960_2_alg».proof.Proof.LibAffineBlock
import proofs.«165937_j50388556316960_2_alg».proof.Proof.LibMomentNorm
import Idealize.ShloMosaic.Lib.Pipeline.Value

noncomputable section

open scoped BigOperators

namespace Cert.KernelIdeal.Block

open Cert.KernelIdeal Cert.KernelIdeal.Gen Idealize.ShloMosaic Idealize.ShloMosaic.ValueIdx
open Cert.RowMoments Cert.Target

/-- The affine image of the block, as the body forms it. -/
abbrev affineBlock (x0 : FVec Ideal S8192x128 .f32) (x1 : FVec Ideal S128x128 .bf16) (x2 : FVec Ideal S1x128 .f32) :
    FVec Ideal S8192x128 .f32 :=
  addf (matmul dot_S8192x128_S128x128_S8192x128_1_0_0_1_n_n none (truncf .bf16 x0 bitsLt_bf16_f32)
      (shapeCast S128x128 x1 shapeCasts_S128x128_S128x128) (constant S8192x128 .f32 0x00000000#32))
    (broadcastTo S8192x128 (shapeCast S1x128 x2 shapeCasts_S1x128_S1x128) broadcasts_S1x128_S8192x128)

/-- The one-row bias as a function of the column. -/
abbrev biasRow (x2 : FVec Ideal S1x128 .f32) : Fin 128 → EReal := fun j => x2 (ix2 (0 : Fin 1) j)

/-- Row p of the block's affine image is the affine row of the block. -/
theorem affineBlock_row (x0 : FVec Ideal S8192x128 .f32) (x1 : FVec Ideal S128x128 .bf16) (x2 : FVec Ideal S1x128 .f32)
    (p : Fin 8192) :
    (fun j : Fin 128 => affineBlock x0 x1 x2 (ix2 p j)) = affineRow (M := 8192) x0 x1 (biasRow x2) p := by
  funext j
  refine (Cert.LibAffineBlock.affine_apply dot_S8192x128_S128x128_S8192x128_1_0_0_1_n_n rfl rfl rfl rfl rfl rfl none
    (truncf .bf16 x0 bitsLt_bf16_f32) (shapeCast S128x128 x1 shapeCasts_S128x128_S128x128)
    (shapeCast S1x128 x2 shapeCasts_S1x128_S1x128) broadcasts_S1x128_S8192x128 p j).trans ?_
  simp only [shapeCast_self]
  rfl

/-- The body's stored value at the entry (p, q) of the block. -/
theorem payload_apply (x0 : FVec Ideal S8192x128 .f32) (x1 : FVec Ideal S128x128 .bf16) (x2 : FVec Ideal S1x128 .f32)
    (p : Fin 8192) (q : Fin 128) :
    k0_pay1 (F := Ideal) x0 x1 x2 (ix2 p q) = momentsForm (M := 8192) x0 x1 (biasRow x2) (ix2 p q) := by
  unfold k0_pay1
  refine (Cert.Lib.MomentNorm.momentNorm_apply 0x43000000#32 0x3727C5AC#32 (affineBlock x0 x1 x2)
    reduces_S8192x128_S8192 (.inl rfl) rfl shapeCasts_S8192_S8192x1 broadcasts_S8192x1_S8192x128 p q).trans ?_
  rw [affineBlock_row x0 x1 x2 p]
  rfl

end Cert.KernelIdeal.Block

end
-- ==== Proof.KernelArray.lean ====
/-
  From the blocks to the array: what the kernel's result array holds after the run.

  The grid has 32 points. Point t reads rows 8192·t … 8192·t + 8191 of x, the whole matrix (written before the call as
  the argument matrix with its float format changed, which is the identity on the extended reals) and the one-row
  bias (written before the call as the bias vector recast to one row), and writes back rows 8192·t … 8192·t + 8191 of
  the result. Row r of the array lies in the block of point r / 8192, so the 32 blocks cover the array, and a row of
  the block's affine image is the same row of the whole array's affine image. Hence the result array is the moments
  form of the three argument arrays.
-/
import proofs.«165937_j50388556316960_2_alg».proof.Proof.Gen.KernelIdeal.Value
import proofs.«165937_j50388556316960_2_alg».proof.Proof.KernelBlock
import Idealize.ShloMosaic.Lib.Pipeline.Value
import Idealize.ShloMosaic.Lib.ValueLayout
import Idealize.ShloMosaic.Lib.StableHlo.Run

noncomputable section

open scoped BigOperators

namespace Cert.KernelIdeal.ArrayValue

open Cert.KernelIdeal Cert.KernelIdeal.Gen Cert.KernelIdeal.Block Idealize.ShloMosaic Idealize.ShloMosaic.TcCoe
open Idealize.SL.Sem Idealize.ShloMosaic.ValueIdx Idealize.ShloMosaic.StableHlo
open Idealize.ShloMosaic.Pipeline (Dat)
open Cert.RowMoments Cert.Target

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 32 points: the block of x and the block of the result move down the rows
    with the point; the matrix and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The two arrays written before the call -/

/-- The matrix the call stages is the argument matrix, entry by entry. -/
theorem staged_matrix (c : Dev nD) (i : S128x128.Idx) :
    (V m c main_v0 : S128x128.Idx → EReal) i = (m ((c : Thread nD τ).loc main_arg1) : S128x128.Idx → EReal) i := by
  have e : (V m c main_v0 : S128x128.Idx → EReal)
      = (truncf (F := Ideal) (s := S128x128) .bf16 (m ((c : Thread nD τ).loc main_arg1) : FVec Ideal S128x128 .f32)
          bitsLt_bf16_f32 : FVec Ideal S128x128 .bf16) := by
    dsimp only [Gen.V, Gen.hostOps0]; after_results; try rfl
  exact congrFun e i

/-- The one row the call stages is the bias vector, entry by entry. -/
theorem staged_bias (c : Dev nD) (j : Fin 128) :
    (V m c main_v1 : S1x128.Idx → EReal) (ix2 (0 : Fin 1) j)
      = (m ((c : Thread nD τ).loc main_arg2) : S128.Idx → EReal) (ix1 j) := by
  have e : (V m c main_v1 : S1x128.Idx → EReal)
      = (shapeCast S1x128 (m ((c : Thread nD τ).loc main_arg2) : S128.Idx → EReal) shapeCasts_S128_S1x128
          : S1x128.Idx → EReal) := by
    dsimp only [Gen.V, Gen.hostOps0]; after_results; try rfl
  exact (congrFun e (ix2 (0 : Fin 1) j)).trans
    (shapeCast_a_1a_apply (m ((c : Thread nD τ).loc main_arg2) : S128.Idx → EReal) shapeCasts_S128_S1x128 0 j)

/-! ## The input blocks at a point -/

/-- Point t's block of x is rows 8192·t … of x. -/
theorem xblock_apply (c : Dev nD) (t : Fin cfg0.N) (y : S8192x128.Idx) (i : S262144x128.Idx)
    (h0 : (i 0).val = t.val * 8192 + (y 0).val) (h1 : (i 1).val = (y 1).val) :
    (iblk m c 0 t : S8192x128.Idx → EReal) y = (V m c main_arg0 : S262144x128.Idx → EReal) i := by
  obtain ⟨e0, e1, -⟩ := idx_facts t
  unfold iblk
  rw [View.read_apply]
  have h : ((cfg0.win 0).blk t).view.emb y = i := by
    funext a; apply Fin.ext
    match a with
    | ⟨0, _⟩ => show win0_0.index t (0 : Fin 2) * 8192 + 1 * (y 0).val = (i 0).val; rw [e0, h0]; omega
    | ⟨1, _⟩ => show win0_0.index t (1 : Fin 2) * 128 + 1 * (y 1).val = (i 1).val; rw [e1, h1]; omega
  rw [h]
  rfl

/-- Every point's block of the matrix is the whole staged matrix. -/
theorem wblock_apply (c : Dev nD) (t : Fin cfg0.N) (y : S128x128.Idx) :
    (iblk m c 1 t : S128x128.Idx → EReal) y = (V m c main_v0 : S128x128.Idx → EReal) y := by
  obtain ⟨-, -, e2, e3, -⟩ := idx_facts t
  unfold iblk
  rw [View.read_apply]
  have h : ((cfg0.win 1).blk t).view.emb y = y := by
    funext a; apply Fin.ext
    match a with
    | ⟨0, _⟩ => show win0_1.index t (0 : Fin 2) * 128 + 1 * (y 0).val = (y 0).val; rw [e2]; omega
    | ⟨1, _⟩ => show win0_1.index t (1 : Fin 2) * 128 + 1 * (y 1).val = (y 1).val; rw [e3]; omega
  rw [h]
  rfl

/-- Every point's block of the bias is the whole staged row. -/
theorem bblock_apply (c : Dev nD) (t : Fin cfg0.N) (y : S1x128.Idx) :
    (iblk m c 2 t : S1x128.Idx → EReal) y = (V m c main_v1 : S1x128.Idx → EReal) y := by
  obtain ⟨-, -, -, -, e4, e5, -⟩ := idx_facts t
  unfold iblk
  rw [View.read_apply]
  have h : ((cfg0.win 2).blk t).view.emb y = y := by
    funext a; apply Fin.ext
    match a with
    | ⟨0, _⟩ => show win0_2.index t (0 : Fin 2) * 1 + 1 * (y 0).val = (y 0).val; rw [e4]; omega
    | ⟨1, _⟩ => show win0_2.index t (1 : Fin 2) * 128 + 1 * (y 1).val = (y 1).val; rw [e5]; omega
  rw [h]
  rfl

/-! ## The result array -/

/-- The moments form of the arrays the call finds. -/
def staged (c : Dev nD) : S262144x128.Idx → EReal :=
  momentsForm (M := 262144) (V m c main_arg0) (V m c main_v0) (fun j => (V m c main_v1 : S1x128.Idx → EReal) (ix2 (0 : Fin 1) j))

/-- What point t's body stores at y of its block is the moments form at the array's entry 8192·t rows further down. -/
theorem entry_eq (c : Dev nD) (t : Fin cfg0.N) (y : S8192x128.Idx) (i : S262144x128.Idx)
    (h0 : (i 0).val = t.val * 8192 + (y 0).val) (h1 : (i 1).val = (y 1).val) :
    k0_pay1 (F := Ideal) (iblk m c 0 t) (iblk m c 1 t) (iblk m c 2 t) y = staged m c i := by
  obtain ⟨p, q, rfl⟩ : ∃ (p : Fin 8192) (q : Fin 128), y = ix2 p q := ⟨y 0, y 1, eq_ix2 y⟩
  obtain ⟨r, s, rfl⟩ : ∃ (r : Fin 262144) (s : Fin 128), i = ix2 r s := ⟨i 0, i 1, eq_ix2 i⟩
  obtain rfl : s = q := Fin.ext h1
  refine (payload_apply (iblk m c 0 t) (iblk m c 1 t) (iblk m c 2 t) p s).trans ?_
  have hrow : affineRow (M := 8192) (iblk m c 0 t) (iblk m c 1 t) (biasRow (iblk m c 2 t)) p
      = affineRow (M := 262144) (V m c main_arg0) (V m c main_v0)
          (fun j => (V m c main_v1 : S1x128.Idx → EReal) (ix2 (0 : Fin 1) j)) r := by
    funext j
    unfold affineRow
    refine congrArg₂ (· + ·) (Finset.sum_congr rfl fun k _ => ?_) (bblock_apply m c t (ix2 (0 : Fin 1) j))
    rw [xblock_apply m c t (ix2 p k) (ix2 r k) h0 rfl, wblock_apply m c t (ix2 k j)]
  show normalized (varMoments cnt (affineRow (M := 8192) (iblk m c 0 t) (iblk m c 1 t) (biasRow (iblk m c 2 t)) p)) eps cnt
      (affineRow (M := 8192) (iblk m c 0 t) (iblk m c 1 t) (biasRow (iblk m c 2 t)) p) s = _
  rw [hrow]
  rfl

/-- What point t writes back is block t of that array. -/
theorem flushed_eq (c : Dev nD) (t : Fin cfg0.N) :
    (dats m 0 c).flushed 3 t = ((cfg0.win 3).blk t).view.read (Elt Ideal) (staged m c) := by
  rw [Cert.KernelIdeal.Value.flushed3]
  unfold out0_3
  rw [View.canon_unit_zero zero_offsets]
  simp only [View.ld_unit_zero (S := S8192x128) zero_offsets, View.ld_unit_zero (S := S128x128) zero_offsets,
    View.ld_unit_zero (S := S1x128) zero_offsets]
  obtain ⟨-, -, -, -, -, -, e6, e7⟩ := idx_facts t
  funext y
  show k0_pay1 (F := Ideal) (iblk m c 0 t) (iblk m c 1 t) (iblk m c 2 t) y = staged m c (((cfg0.win 3).blk t).view.emb y)
  refine entry_eq m c t y _ ?_ ?_
  · show win0_3.index t (0 : Fin 2) * 8192 + 1 * (y 0).val = t.val * 8192 + (y 0).val; rw [e6]; omega
  · show win0_3.index t (1 : Fin 2) * 128 + 1 * (y 1).val = (y 1).val; rw [e7]; omega

/-- An index of the array is in point t's block iff each coordinate is in the block's range on its axis. -/
theorem mem_blk (t : Fin cfg0.N) (i : S262144x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v2).slice (win0_3.rect t)).set ↔ _
  rw [View.set_slice_whole, Rect.mem_set_unit]
  exact Iff.rfl

/-- Row r lies in the block of point r / 8192: the blocks cover the array. -/
theorem cover (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  have hN : cfg0.N = 32 := N_0
  obtain ⟨t, ht⟩ : ∃ t : Fin cfg0.N, t.val = (i 0).val / 8192 := ⟨⟨(i 0).val / 8192, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 8192 ≤ (i 0).val ∧ (i 0).val < win0_3.index t (0 : Fin 2) * 8192 + 8192
    rw [e6, ht]; omega
  | ⟨1, _⟩ =>
    show win0_3.index t (1 : Fin 2) * 128 ≤ (i 1).val ∧ (i 1).val < win0_3.index t (1 : Fin 2) * 128 + 128
    rw [e7]; omega

/-- So the result array after the run is the moments form of the arrays the call finds, -/
theorem final (c : Dev nD) : (dats m 0 c).arrAt 3 cfg0.N = staged m c :=
  (dats m 0 c).arrAt_eq_of_cover 3 (staged m c) (fun t _ => flushed_eq m c t) cover

/-- which is the moments form of the three argument arrays. -/
theorem staged_eq (c : Dev nD) :
    staged m c = momentsForm (M := 262144) (m ((c : Thread nD τ).loc main_arg0)) (m ((c : Thread nD τ).loc main_arg1))
      (fun j => (m ((c : Thread nD τ).loc main_arg2) : S128.Idx → EReal) (ix1 j)) := by
  unfold staged
  have hw : (V m c main_v0 : S128x128.Idx → EReal) = m ((c : Thread nD τ).loc main_arg1) := funext (staged_matrix m c)
  have hb : (fun j : Fin 128 => (V m c main_v1 : S1x128.Idx → EReal) (ix2 (0 : Fin 1) j))
      = fun j => (m ((c : Thread nD τ).loc main_arg2) : S128.Idx → EReal) (ix1 j) := funext (staged_bias m c)
  rw [V_main_arg0, hw, hb]

/-- The kernel's run, read: the result array at the moments form of the arguments, the arguments unchanged. -/
theorem run : θ_run defs (onTc (τ := τ) (main (F := Ideal))) ⟨m, fun _ => 0, ρ⟩ fun r => ∀ c : Dev nD,
      r.2.mem ((c : Thread nD τ).loc main_v2)
        = momentsForm (M := 262144) (m ((c : Thread nD τ).loc main_arg0)) (m ((c : Thread nD τ).loc main_arg1))
            (fun j => (m ((c : Thread nD τ).loc main_arg2) : S128.Idx → EReal) (ix1 j))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (staged_eq m c)), (h c).2⟩)
    (Cert.KernelIdeal.Value.run_blocks m ρ)

end Cert.KernelIdeal.ArrayValue

end
-- ==== Proof.ReferenceValue.lean ====
/-
  The reference's result is the array of rows normalized with the mean square deviation.

  Read one operation at a time: the product plus the broadcast bias at (p, q) is row p of the affine image at q; the
  host's sum along the rows divided by 128.0 is that row's mean, whatever unit coordinate it is read at; the sum of
  the squared deviations divided by 128.0 is the row's variance as the mean square deviation; and the result is the
  deviation times the reciprocal square root of the variance plus ε.
-/
import proofs.«165937_j50388556316960_2_alg».proof.Proof.Gen.ReferenceIdeal.Read
import proofs.«165937_j50388556316960_2_alg».proof.Proof.Target

noncomputable section

open scoped BigOperators

namespace Cert.ReferenceIdeal.RefValue

open Cert.ReferenceIdeal Cert.ReferenceIdeal.Read Idealize.ShloMosaic Idealize.ShloMosaic.ValueIdx
open Cert.RowMoments Cert.Target

variable (x0 : (⟨S262144x128, .f32⟩ : BufTy).Contents (Elt Ideal)) (x1 : (⟨S128x128, .f32⟩ : BufTy).Contents (Elt Ideal))
  (x2 : (⟨S128, .f32⟩ : BufTy).Contents (Elt Ideal))

/-- The bias vector as a function of the column. -/
abbrev bias : Fin 128 → EReal := fun j => x2 (ix1 j)

/-- The product plus the bias, at (p, q): row p of the affine image at q. -/
theorem affine_apply (p : Fin 262144) (q : Fin 128) :
    val_main_v3 (F := Ideal) x0 x1 x2 (ix2 p q) = affineRow (M := 262144) x0 x1 (bias x2) p q := by
  rw [val_main_v3_apply, val_main_v0_apply, val_main_v2_apply, val_main_v1_apply]
  have el : ∀ k : Fin 128, lidx_main_v0 (ix2 p q) k = ix2 p k := fun k =>
    funext fun a => Fin.ext (by match a with | ⟨0, _⟩ => rfl | ⟨1, _⟩ => rfl)
  have er : ∀ k : Fin 128, ridx_main_v0 (ix2 p q) k = ix2 k q := fun k =>
    funext fun a => Fin.ext (by match a with | ⟨0, _⟩ => rfl | ⟨1, _⟩ => rfl)
  have eb : idx_main_v1 (idx_main_v2 (ix2 p q)) = ix1 q :=
    funext fun a => Fin.ext (by match a with | ⟨0, _⟩ => rfl)
  simp only [el, er, eb]
  rfl

/-- The column of means at row p: the mean of that row of the affine image. -/
theorem mean_apply (p : Fin 262144) (z : Fin 1) :
    val_main_v7 (F := Ideal) x0 x1 x2 (ix2 p z) = mean cnt (affineRow (M := 262144) x0 x1 (bias x2) p) := by
  rw [val_main_v7_apply, val_main_v5_apply, val_main_v6_apply, val_main_cst_0_apply, val_main_v4_apply,
    val_main_cst_apply]
  have e : ∀ k : Fin 128, idx_main_v4 (idx_main_v5 (ix2 p z)) k = ix2 p k := fun k =>
    funext fun a => Fin.ext (by match a with | ⟨0, _⟩ => rfl | ⟨1, _⟩ => rfl)
  simp only [e, affine_apply x0 x1 x2, Ideal.hostDivf_def, Ideal.ofBits_def, Ideal.ofBits_zero_f32, zero_add]
  rfl

/-- The column of variances at row p: the mean square deviation of that row. -/
theorem var_apply (p : Fin 262144) (z : Fin 1) :
    val_main_v14 (F := Ideal) x0 x1 x2 (ix2 p z) = varCentered cnt (affineRow (M := 262144) x0 x1 (bias x2) p) := by
  rw [val_main_v14_apply, val_main_v12_apply, val_main_v13_apply, val_main_cst_2_apply, val_main_v11_apply,
    val_main_cst_1_apply]
  have e : ∀ k : Fin 128, idx_main_v11 (idx_main_v12 (ix2 p z)) k = ix2 p k := fun k =>
    funext fun a => Fin.ext (by match a with | ⟨0, _⟩ => rfl | ⟨1, _⟩ => rfl)
  have e8 : ∀ k : Fin 128, idx_main_v8 (ix2 p k) = ix2 p (0 : Fin 1) := fun k =>
    funext fun a => Fin.ext (by match a with | ⟨0, _⟩ => rfl | ⟨1, _⟩ => rfl)
  simp only [e, val_main_v10_apply, val_main_v9_apply, val_main_v8_apply, e8, affine_apply x0 x1 x2,
    mean_apply x0 x1 x2, Ideal.hostDivf_def, Ideal.ofBits_def, Ideal.ofBits_zero_f32, zero_add, Ideal.subf_def,
    Ideal.mulf_def]
  rfl

/-- The reference's result is the centered form of the arguments. -/
theorem result_eq : val_main_v21 (F := Ideal) x0 x1 x2 = centeredForm (M := 262144) x0 x1 (bias x2) := by
  funext i
  obtain ⟨p, q, rfl⟩ : ∃ (p : Fin 262144) (q : Fin 128), i = ix2 p q := ⟨i 0, i 1, eq_ix2 i⟩
  rw [val_main_v21_apply, val_main_v16_apply, val_main_v15_apply, val_main_v20_apply, val_main_v19_apply,
    val_main_v18_apply, val_main_v17_apply, val_main_cst_3_apply]
  have e15 : idx_main_v15 (ix2 p q) = ix2 p (0 : Fin 1) :=
    funext fun a => Fin.ext (by match a with | ⟨0, _⟩ => rfl | ⟨1, _⟩ => rfl)
  have e20 : idx_main_v20 (ix2 p q) = ix2 p (0 : Fin 1) :=
    funext fun a => Fin.ext (by match a with | ⟨0, _⟩ => rfl | ⟨1, _⟩ => rfl)
  simp only [e15, e20, affine_apply x0 x1 x2, mean_apply x0 x1 x2, var_apply x0 x1 x2, Ideal.hostUnary_rsqrt_def,
    Ideal.ofBits_def, Ideal.subf_def, Ideal.mulf_def, Ideal.addf_def]
  rfl

end Cert.ReferenceIdeal.RefValue

end
-- ==== Proof.FiniteInputs.lean ====
/-
  Finite inputs are real numbers.

  The precondition says of each of the three argument arrays that every entry's absolute value is below +∞, the three
  facts joined by `and`. On the extended reals |x| = max x (−x) is below +∞ exactly when x is neither infinity, that
  is when x is a real number. So under the precondition every entry of x, of the matrix and of the bias is a real
  number.
-/
import proofs.«165937_j50388556316960_2_alg».proof.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.FiniteInputs

open Idealize.ShloMosaic Cert.Pre_finite_inputs

/-- The rank-0 shape has one index. -/
instance : Subsingleton S_.Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value compares below +∞ is a real number. -/
theorem real_of_abs_lt_inf (x : EReal)
    (h : FloatOps.cmpf (F := Ideal) (φ := .f32) .olt (FloatOps.hostAbsf x) (FloatOps.ofBits .f32 0x7F800000#32) = 1#1) :
    ∃ y : ℝ, x = (y : EReal) := by
  have hlt : max x (-x) < (⊤ : EReal) := by
    by_contra hn
    have : FloatOps.cmpf (F := Ideal) (φ := .f32) .olt (FloatOps.hostAbsf x) (FloatOps.ofBits .f32 0x7F800000#32) = 0#1 := by
      show BitVec.ofBool (decide (max x (-x) < Ideal.ofBits .f32 0x7F800000#32)) = 0#1
      rw [ofBits_inf, decide_eq_false hn]; rfl
    rw [this] at h
    exact absurd h (by decide)
  induction x using EReal.rec with
  | bot => exact absurd hlt (by simp)
  | coe y => exact ⟨y, rfl⟩
  | top => exact absurd hlt (by simp)

variable [Cert.Pre_finite_inputs.Facts]

/-- Under the precondition every entry of each argument array is a real number. -/
theorem real_of_pre (a0 : FVec Ideal S262144x128 .f32) (a1 : FVec Ideal S128x128 .f32) (a2 : FVec Ideal S128 .f32)
    (h : Cert.Pre_finite_inputs.fn (F := Ideal) a0 a1 a2 = fun _ => 1#1) :
    (∀ i, ∃ y : ℝ, a0 i = (y : EReal)) ∧ (∀ i, ∃ y : ℝ, a1 i = (y : EReal)) ∧ (∀ i, ∃ y : ℝ, a2 i = (y : EReal)) := by
  have h' := congrFun h ValueIdx.ix0
  dsimp only [Cert.Pre_finite_inputs.fn] at h'
  obtain ⟨h01, h2⟩ := IntOp.andi_eq_one.mp h'
  obtain ⟨h0, h1⟩ := IntOp.andi_eq_one.mp h01
  refine ⟨fun i => ?_, fun i => ?_, fun i => ?_⟩
  · exact real_of_abs_lt_inf (a0 i) (Host.reduce_andi_all _ _ _ _ _ h0 i)
  · exact real_of_abs_lt_inf (a1 i) (Host.reduce_andi_all _ _ _ _ _ h1 i)
  · exact real_of_abs_lt_inf (a2 i) (Host.reduce_andi_all _ _ _ _ _ h2 i)

end Cert.FiniteInputs

end
-- ==== Proof.lean ====
/-
  A linear layer followed by a row normalization, tiled over the rows, against the same computation on whole arrays.

  Both programs form z = x · W + b for x : [262144, 128], W : [128, 128], b : [128] and return, row by row,
      (z − μ) · rsqrt (var + ε),      μ = (Σ_j z_j) / 128,
  with the same two literals 128.0 and ε. They differ in two ways. The kernel works on blocks of 8192 rows, one per grid
  point, and rounds x and W to a shorter float format before the product; on the extended reals a change of format is
  the identity, a row of a block's product is the same row of the whole product, and the 32 blocks cover the result.
  And the kernel takes the variance from the first two moments, (Σ z²) / 128 − μ · μ, where the reference takes the mean
  square deviation (Σ (z − μ)²) / 128. These are one number when the row is real, because Σ (z − μ)² = Σ z² − 128 μ²; on
  the extended reals that needs the entries finite, which is what the precondition gives: every entry of x, W and b is
  a real number, hence so is every entry of z.

  The three frames are the generated ones (the reference's is its run with the result dropped); the idealization
  rewrote nothing, so it preserves trivially; the algebraic claim sets the kernel's result array, read as the moments
  form of the arguments, beside the reference's result, read as the centered form, and joins them by the variance
  identity on real rows.
-/
import proofs.«165937_j50388556316960_2_alg».proof.Defs
import proofs.«165937_j50388556316960_2_alg».proof.Proof.Gen.Kernel
import proofs.«165937_j50388556316960_2_alg».proof.Proof.Gen.Kernel.Frame
import proofs.«165937_j50388556316960_2_alg».proof.Proof.Gen.KernelIdeal
import proofs.«165937_j50388556316960_2_alg».proof.Proof.Gen.KernelIdeal.Frame
import proofs.«165937_j50388556316960_2_alg».proof.Proof.Gen.KernelIdeal.Value
import proofs.«165937_j50388556316960_2_alg».proof.Proof.Gen.ReferenceIdeal
import proofs.«165937_j50388556316960_2_alg».proof.Proof.Gen.ReferenceIdeal.Run
import proofs.«165937_j50388556316960_2_alg».proof.Proof.Gen.ReferenceIdeal.Read
import proofs.«165937_j50388556316960_2_alg».proof.Proof.Gen.Pre_finite_inputs
import proofs.«165937_j50388556316960_2_alg».proof.Proof.KernelArray
import proofs.«165937_j50388556316960_2_alg».proof.Proof.ReferenceValue
import proofs.«165937_j50388556316960_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite arguments the kernel's result, the rows normalized with the variance from the moments, is the
    reference's, the rows normalized with the mean square deviation. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, (hagree c).1, (hagree c).2.1,
    (hagree c).2.2]
  obtain ⟨hx, hw, hb⟩ := Cert.FiniteInputs.real_of_pre _ _ _ (hpre c)
  exact (Cert.Target.momentsForm_eq_centeredForm _ _ _ hx hw (fun j => hb (ix1 j))).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
